-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S512x512 : Shape := ⟨2, ![512, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_arg4 : FVec F S512x512 .f32) (main_v13 : IVec S_ 1) (main_v16 : IVec S8192x512 1) : IVec S_ 1 :=
  let main_c_5 : IVec S_ 1 := constantI S_ 1 1#1
  let main_v17 : IVec S_ 1 := (fun x v => Host.reduce IntOp.andi x v reducesTo_S8192x512_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  main_v23

def fn {F : FTy → Type} [FloatOps F] (main_arg0 : FVec F S8192x512 .f32) (main_arg1 : FVec F S8192x512 .f32) (main_arg2 : FVec F S8192x512 .f32) (main_arg3 : FVec F S8192x512 .f32) (main_arg4 : FVec F S512x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S8192x512 .f32 := Host.absf main_arg3
  let main_cst_4 : FVec F S_ .f32 := constant S_ .f32 0x7F800000#32
  let main_v15 : FVec F S8192x512 .f32 := broadcastInDim S8192x512 ![] bcast_S_S8192x512 main_cst_4
  let main_v16 : IVec S8192x512 1 := cmpf .olt main_v14 main_v15
  fn_part1 (F := F) main_arg4 main_v13 main_v16
-- ==== Kernel.lean ====
abbrev S8192x512 : Shape := ⟨2, ![8192, 512]⟩
abbrev S512x512 : Shape := ⟨2, ![512, 512]⟩
abbrev S1024x512 : Shape := ⟨2, ![1024, 512]⟩
abbrev S8192x8192 : Shape := ⟨2, ![8192, 8192]⟩
abbrev S1024x1024 : Shape := ⟨2, ![1024, 1024]⟩

abbrev nBuf : Space → Nat
  | .hbm => 8
  | .vmem => 18
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S512x512, .f32⟩
  | .hbm, ⟨5, _⟩ => ⟨S8192x512, .f32⟩
  | .hbm, ⟨6, _⟩ => ⟨S8192x512, .bf16⟩
  | .hbm, ⟨7, _⟩ => ⟨S8192x8192, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S512x512, .f32⟩
  | .local _ .vmem, ⟨9, _⟩ => ⟨S1024x512, .f32⟩
  | .local _ .vmem, ⟨10, _⟩ => ⟨S1024x512, .f32⟩
  | .local _ .vmem, ⟨11, _⟩ => ⟨S1024x512, .bf16⟩
  | .local _ .vmem, ⟨12, _⟩ => ⟨S1024x512, .bf16⟩
  | .local _ .vmem, ⟨13, _⟩ => ⟨S1024x512, .f32⟩
  | .local _ .vmem, ⟨14, _⟩ => ⟨S1024x512, .f32⟩
  | .local _ .vmem, ⟨15, _⟩ => ⟨S8192x512, .bf16⟩
  | .local _ .vmem, ⟨16, _⟩ => ⟨S1024x1024, .f32⟩
  | .local _ .vmem, ⟨17, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg2_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem2_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![8, 8], ![false, false]⟩

def k1_mult1 (i : grid1.Coords) : BitVec 32 :=
  let arg1 : BitVec 32 := BitVec.ofNat 32 (i 1).val
  let c1024_i32 : BitVec 32 := 1024#32
  let v0 : BitVec 32 := Scalar.muli arg1 c1024_i32
  v0
def k1_off1 (i : grid1.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v2 : Index := Scalar.indexCast v1
  let c0 : Index := 0#32
  ![v2.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S8192x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  packedbf16_S1024x512_S1024x512_0_0 : (Rect.unit (s := S1024x512) ![0, 0] S1024x512.size inb_S1024x512_S1024x512_0_0).PackedRows (EltTy.packing .bf16)
  shapeCasts_S1024x512_S1024x512 : S1024x512.ShapeCasts S1024x512
  inb_S1024x1024_S1024x1024_0_0 : ∀ a, (![0, 0] : Fin 2 → Nat) a + S1024x1024.size a ≤ S1024x1024.size a
  h_S1024x1024 : 0 < S1024x1024.numel
  dot_S1024x512_S512x512_S1024x512_1_1_0_0_n_n_wf : DotDims.WF S1024x512 S512x512 S1024x512 [1] [1] [0] [0] [] []
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .f32 = 32 ∨ (Rect.block (s := S8192x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S8192x512.size a
  hwx0_2 : ∀ i : grid0.Coords, EltTy.bits .f32 = 32 ∨ (Rect.block (s := S8192x512) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x512.size a
  hwx0_3 : ∀ i : grid0.Coords, EltTy.bits .f32 = 32 ∨ (Rect.block (s := S8192x512) S1024x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S8192x512.size a
  hwx0_5 : ∀ i : grid0.Coords, EltTy.bits .f32 = 32 ∨ (Rect.block (s := S8192x512) S1024x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S8192x512.size a
  hwx0_6 : ∀ i : grid0.Coords, EltTy.bits .bf16 = 32 ∨ (Rect.block (s := S8192x512) S1024x512.size (cc0_transform_6 i) (hinb0_6 i)).WholeWords (EltTy.packing .bf16)
  hrank1 : 0 < grid1.rank
  k1_mult1_dvd : ∀ i : grid1.Coords, 1024 ∣ (k1_mult1 i).toNat
  k1_off1_inb : ∀ i : grid1.Coords, ∀ a, (k1_off1 i) a + S1024x512.size a ≤ S8192x512.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x512.size a
  hwx1_0 : ∀ i : grid1.Coords, EltTy.bits .f32 = 32 ∨ (Rect.block (s := S8192x512) S1024x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x512.size a ≤ S8192x512.size a
  hwx1_1 : ∀ i : grid1.Coords, EltTy.bits .bf16 = 32 ∨ (Rect.block (s := S8192x512) S8192x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x8192.size a
  hwx1_2 : ∀ i : grid1.Coords, EltTy.bits .f32 = 32 ∨ (Rect.block (s := S8192x8192) S1024x1024.size (cc1_transform_2 i) (hinb1_2 i)).WholeWords (EltTy.packing .f32)

variable [Facts₀]

def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf
def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S1024x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S1024x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v0_0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S8192x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x512 : Shape := ⟨2, ![8192, 512]⟩
abbrev S512x512 : Shape := ⟨2, ![512, 512]⟩
abbrev S8192x8192 : Shape := ⟨2, ![8192, 8192]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S512x512, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  dot_S8192x512_S512x512_S8192x512_1_1_0_0_n_n_wf : DotDims.WF S8192x512 S512x512 S8192x512 [1] [1] [0] [0] [] []
  dot_S8192x512_S8192x512_S8192x8192_1_1_0_0_n_n_wf : DotDims.WF S8192x512 S8192x512 S8192x8192 [1] [1] [0] [0] [] []

variable [Facts₀]

def dot_S8192x512_S512x512_S8192x512_1_1_0_0_n_n : DotDims S8192x512 S512x512 S8192x512 where
  lhsContracting := [1]
  rhsContracting := [1]
  lhsNonContracting := [0]
  rhsNonContracting := [0]
  lhsBatch := []
  rhsBatch := []
  wf := dot_S8192x512_S512x512_S8192x512_1_1_0_0_n_n_wf
def dot_S8192x512_S8192x512_S8192x8192_1_1_0_0_n_n : DotDims S8192x512 S8192x512 S8192x8192 where
  lhsContracting := [1]
  rhsContracting := [1]
  lhsNonContracting := [0]
  rhsNonContracting := [0]
  lhsBatch := []
  rhsBatch := []
  wf := dot_S8192x512_S8192x512_S8192x8192_1_1_0_0_n_n_wf

class Facts : Prop extends Facts₀ where

variable [Facts]
-- ==== Proof.Spec.lean ====
/-
  The function both programs compute, over the extended reals.

  With  x, mx, y, my : 8192×512  and  w : 512×512,
      projected (n, k) = ∑ d < 512, (x (n, d) · mx (n, d)) · w (k, d)        (the masked x against the rows of w)
      masked j         = y j · my j                                            (the masked y)
      result (n, r)    = logistic (∑ k < 512, projected (n, k) · masked (r, k))
  where  logistic t = 1 / (1 + e^(−t)).  Entry (n, k) of `projected` reads row `n` of `x` and `mx` only, and entry
  (n, r) of the result reads row `n` of `projected` and row `r` of `masked` only: this is what lets the result be
  computed block of rows by block of rows, and tile by tile.
-/
import Idealize.ShloMosaic.PureOps.Ideal
import Idealize.ShloMosaic.Lib.ValueIdx

noncomputable section

namespace Cert.Score

open Idealize.ShloMosaic Idealize.ShloMosaic.ValueIdx

/-- The masked `x` against the rows of `w`. -/
def projected (x mx : (⟨2, ![8192, 512]⟩ : Shape).Idx → EReal) (w : (⟨2, ![512, 512]⟩ : Shape).Idx → EReal) :
    (⟨2, ![8192, 512]⟩ : Shape).Idx → EReal :=
  fun i => ∑ d : Fin 512, (x (ix2 (i 0) d) * mx (ix2 (i 0) d)) * w (ix2 (i 1) d)

theorem projected_apply (x mx : (⟨2, ![8192, 512]⟩ : Shape).Idx → EReal) (w : (⟨2, ![512, 512]⟩ : Shape).Idx → EReal)
    (n : Fin 8192) (k : Fin 512) :
    projected x mx w (ix2 n k) = ∑ d : Fin 512, (x (ix2 n d) * mx (ix2 n d)) * w (ix2 k d) := rfl

/-- The masked `y`. -/
def masked (y my : (⟨2, ![8192, 512]⟩ : Shape).Idx → EReal) : (⟨2, ![8192, 512]⟩ : Shape).Idx → EReal :=
  fun i => y i * my i

/-- The logistic function of the rows of `xt` against the rows of `yd`. -/
def score (xt yd : (⟨2, ![8192, 512]⟩ : Shape).Idx → EReal) : (⟨2, ![8192, 8192]⟩ : Shape).Idx → EReal :=
  fun i => Ideal.logistic (∑ k : Fin 512, xt (ix2 (i 0) k) * yd (ix2 (i 1) k))

theorem score_apply (xt yd : (⟨2, ![8192, 512]⟩ : Shape).Idx → EReal) (n r : Fin 8192) :
    score xt yd (ix2 n r) = Ideal.logistic (∑ k : Fin 512, xt (ix2 n k) * yd (ix2 r k)) := rfl

/-- The whole result. -/
def result (x mx y my : (⟨2, ![8192, 512]⟩ : Shape).Idx → EReal) (w : (⟨2, ![512, 512]⟩ : Shape).Idx → EReal) :
    (⟨2, ![8192, 8192]⟩ : Shape).Idx → EReal :=
  score (projected x mx w) (masked y my)

/-- The float pattern of one is the number one. -/
theorem ofBits_one : Ideal.ofBits .f32 0x3F800000#32 = 1 := by
  simp [Ideal.ofBits, Ideal.ieee, -EReal.coe_mul]; norm_num

end Cert.Score

end
-- ==== Proof.RefValue.lean ====
/-
  The reference computes `Cert.Score.result`: its operations read one at a time at an index (n, r) give
      1 / (1 + e^(−∑ k, (∑ d, (x (n, d) · mx (n, d)) · w (k, d)) · (y (r, k) · my (r, k))))
  which is the logistic function of that sum by definition.
-/
import proofs.«174755_j32392643347090_2_alg».proof.Proof.Gen.ReferenceIdeal.Read
import proofs.«174755_j32392643347090_2_alg».proof.Proof.Spec

noncomputable section

namespace Cert.ReferenceIdeal.RefValue

open Cert.ReferenceIdeal Cert.ReferenceIdeal.Read Idealize.ShloMosaic Idealize.ShloMosaic.ValueIdx

theorem lrow (n r : Fin 8192) (k : Fin 512) : lidx_main_v3 (ix2 n r) k = ix2 n k :=
  funext fun a => Fin.ext (by match a with | ⟨0, _⟩ => rfl | ⟨1, _⟩ => rfl)
theorem rrow (n r : Fin 8192) (k : Fin 512) : ridx_main_v3 (ix2 n r) k = ix2 r k :=
  funext fun a => Fin.ext (by match a with | ⟨0, _⟩ => rfl | ⟨1, _⟩ => rfl)
theorem lrow' (n : Fin 8192) (k d : Fin 512) : lidx_main_v2 (ix2 n k) d = ix2 n d :=
  funext fun a => Fin.ext (by match a with | ⟨0, _⟩ => rfl | ⟨1, _⟩ => rfl)
theorem rrow' (n : Fin 8192) (k d : Fin 512) : ridx_main_v2 (ix2 n k) d = ix2 k d :=
  funext fun a => Fin.ext (by match a with | ⟨0, _⟩ => rfl | ⟨1, _⟩ => rfl)

/-- The reference's last stage is the result function of its five arguments (x, y, mask_x, mask_y, w in the
    program's order). -/
theorem stage_eq (x y mx my : (⟨S8192x512, .f32⟩ : BufTy).Contents (Elt Ideal)) (w : (⟨S512x512, .f32⟩ : BufTy).Contents (Elt Ideal)) :
    val_main_v9 (F := Ideal) x y mx my w = Cert.Score.result x mx y my w := by
  funext i
  obtain ⟨n, r, rfl⟩ : ∃ (n r : Fin 8192), i = ix2 n r := ⟨i 0, i 1, eq_ix2 i⟩
  rw [val_main_v9_apply, val_main_v8_apply, val_main_cst_0_apply, val_main_v7_apply, val_main_v6_apply, val_main_cst_apply,
    val_main_v5_apply, val_main_v4_apply, val_main_v3_apply]
  simp only [lrow, rrow, val_main_v2_apply, lrow', rrow', val_main_v1_apply, val_main_v0_apply, Ideal.mulf_def,
    Ideal.hostDivf_def, Ideal.addf_def, Ideal.hostUnary_exp_def, Ideal.hostNegf_def, Ideal.negf_def, Ideal.ofBits_def,
    Cert.Score.ofBits_one]
  rfl

end Cert.ReferenceIdeal.RefValue

end
-- ==== Proof.Dots.lean ====
/-
  The two matrix products of the kernel, and the three stored values, read index by index over the extended reals.

  Both products contract the SECOND axis of both operands (no batch axis): entry (p, q) of the product of
  `a : A×512` and `b : B×512` is  ∑ k < 512, a (p, k) · b (q, k).  A change of float format is the identity on exact
  values, so the first kernel stores, per block of 1024 rows,
      (p, k) ↦ ∑ d, (x (p, d) · mx (p, d)) · w (k, d)      and      j ↦ y j · my j,
  and the second stores the logistic function of  ∑ k, xt (p, k) · yd (q, k).
-/
import proofs.«174755_j32392643347090_2_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Score

open Cert.KernelIdeal Cert.KernelIdeal.Gen Idealize.ShloMosaic Idealize.ShloMosaic.ValueIdx

/-! ## Which entries of the operands an entry of each product reads -/

theorem rows_lhs0 (i : S1024x512.Idx) (q : dot_S1024x512_S512x512_S1024x512_1_1_0_0_n_n.contr.Idx) : (dot_S1024x512_S512x512_S1024x512_1_1_0_0_n_n.lhsIdx i q 0).val = (i 0).val := by
  unfold DotDims.lhsIdx
  rw [dif_neg (show ¬(0 : Fin S1024x512.rank) ∈ dot_S1024x512_S512x512_S1024x512_1_1_0_0_n_n.lhsBatch by decide),
    dif_pos (show (0 : Fin S1024x512.rank) ∈ dot_S1024x512_S512x512_S1024x512_1_1_0_0_n_n.lhsNonContracting by decide)]
  rfl
theorem rows_lhs1 (i : S1024x512.Idx) (q : dot_S1024x512_S512x512_S1024x512_1_1_0_0_n_n.contr.Idx) : (dot_S1024x512_S512x512_S1024x512_1_1_0_0_n_n.lhsIdx i q 1).val = (q ⟨0, by decide⟩).val :=
  dot_S1024x512_S512x512_S1024x512_1_1_0_0_n_n.lhsIdx_val_of_single rfl i q
theorem rows_rhs0 (i : S1024x512.Idx) (q : dot_S1024x512_S512x512_S1024x512_1_1_0_0_n_n.contr.Idx) : (dot_S1024x512_S512x512_S1024x512_1_1_0_0_n_n.rhsIdx i q 0).val = (i 1).val := by
  unfold DotDims.rhsIdx
  rw [dif_neg (show ¬(0 : Fin S512x512.rank) ∈ dot_S1024x512_S512x512_S1024x512_1_1_0_0_n_n.rhsBatch by decide),
    dif_pos (show (0 : Fin S512x512.rank) ∈ dot_S1024x512_S512x512_S1024x512_1_1_0_0_n_n.rhsNonContracting by decide)]
  rfl
theorem rows_rhs1 (i : S1024x512.Idx) (q : dot_S1024x512_S512x512_S1024x512_1_1_0_0_n_n.contr.Idx) : (dot_S1024x512_S512x512_S1024x512_1_1_0_0_n_n.rhsIdx i q 1).val = (q ⟨0, by decide⟩).val :=
  dot_S1024x512_S512x512_S1024x512_1_1_0_0_n_n.rhsIdx_val_of_single rfl i q

theorem tile_lhs0 (i : S1024x1024.Idx) (q : dot_S1024x512_S1024x512_S1024x1024_1_1_0_0_n_n.contr.Idx) : (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide),
    dif_pos (show (0 : Fin S1024x512.rank) ∈ dot_S1024x512_S1024x512_S1024x1024_1_1_0_0_n_n.lhsNonContracting by decide)]
  rfl
theorem tile_lhs1 (i : S1024x1024.Idx) (q : dot_S1024x512_S1024x512_S1024x1024_1_1_0_0_n_n.contr.Idx) : (dot_S1024x512_S1024x512_S1024x1024_1_1_0_0_n_n.lhsIdx i q 1).val = (q ⟨0, by decide⟩).val :=
  dot_S1024x512_S1024x512_S1024x1024_1_1_0_0_n_n.lhsIdx_val_of_single rfl i q
theorem tile_rhs0 (i : S1024x1024.Idx) (q : dot_S1024x512_S1024x512_S1024x1024_1_1_0_0_n_n.contr.Idx) : (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide),
    dif_pos (show (0 : Fin S1024x512.rank) ∈ dot_S1024x512_S1024x512_S1024x1024_1_1_0_0_n_n.rhsNonContracting by decide)]
  rfl
theorem tile_rhs1 (i : S1024x1024.Idx) (q : dot_S1024x512_S1024x512_S1024x1024_1_1_0_0_n_n.contr.Idx) : (dot_S1024x512_S1024x512_S1024x1024_1_1_0_0_n_n.rhsIdx i q 1).val = (q ⟨0, by decide⟩).val :=
  dot_S1024x512_S1024x512_S1024x1024_1_1_0_0_n_n.rhsIdx_val_of_single rfl i q

/-! ## The products as sums over the shared axis -/

theorem matmul_rows (a : FVec Ideal S1024x512 .bf16) (b : FVec Ideal S512x512 .bf16) (p : Fin 1024) (q : Fin 512) :
    matmul dot_S1024x512_S512x512_S1024x512_1_1_0_0_n_n none a b (constant S1024x512 .f32 0x00000000#32) (ix2 p q)
      = ∑ d : Fin 512, a (ix2 p d) * b (ix2 q d) := by
  show FloatOps.matmul _ _ _ _ _ _ = _
  rw [Ideal.matmul_constant_zero_apply, ← Equiv.sum_comp (contrEquiv1 dot_S1024x512_S512x512_S1024x512_1_1_0_0_n_n 512 rfl rfl).symm]
  refine Finset.sum_congr rfl fun d _ => ?_
  have h := contrEquiv1_symm_val dot_S1024x512_S512x512_S1024x512_1_1_0_0_n_n 512 rfl rfl d
  have el : dot_S1024x512_S512x512_S1024x512_1_1_0_0_n_n.lhsIdx (ix2 p q) ((contrEquiv1 dot_S1024x512_S512x512_S1024x512_1_1_0_0_n_n 512 rfl rfl).symm d) = ix2 p d :=
    funext fun z => Fin.ext (by
      match z with
      | ⟨0, _⟩ => exact rows_lhs0 _ _
      | ⟨1, _⟩ => exact (rows_lhs1 _ _).trans h)
  have er : dot_S1024x512_S512x512_S1024x512_1_1_0_0_n_n.rhsIdx (ix2 p q) ((contrEquiv1 dot_S1024x512_S512x512_S1024x512_1_1_0_0_n_n 512 rfl rfl).symm d) = ix2 q d :=
    funext fun z => Fin.ext (by
      match z with
      | ⟨0, _⟩ => exact rows_rhs0 _ _
      | ⟨1, _⟩ => exact (rows_rhs1 _ _).trans h)
  rw [el, er]

theorem matmul_tile (a b : FVec Ideal S1024x512 .bf16) (p q : Fin 1024) :
    matmul dot_S1024x512_S1024x512_S1024x1024_1_1_0_0_n_n none a b (constant S1024x1024 .f32 0x00000000#32) (ix2 p q)
      = ∑ k : Fin 512, a (ix2 p k) * b (ix2 q k) := by
  show FloatOps.matmul _ _ _ _ _ _ = _
  rw [Ideal.matmul_constant_zero_apply, ← Equiv.sum_comp (contrEquiv1 dot_S1024x512_S1024x512_S1024x1024_1_1_0_0_n_n 512 rfl rfl).symm]
  refine Finset.sum_congr rfl fun k _ => ?_
  have h := contrEquiv1_symm_val dot_S1024x512_S1024x512_S1024x1024_1_1_0_0_n_n 512 rfl rfl k
  have el : dot_S1024x512_S1024x512_S1024x1024_1_1_0_0_n_n.lhsIdx (ix2 p q) ((contrEquiv1 dot_S1024x512_S1024x512_S1024x1024_1_1_0_0_n_n 512 rfl rfl).symm k) = ix2 p k :=
    funext fun z => Fin.ext (by
      match z with
      | ⟨0, _⟩ => exact tile_lhs0 _ _
      | ⟨1, _⟩ => exact (tile_lhs1 _ _).trans h)
  have er : dot_S1024x512_S1024x512_S1024x1024_1_1_0_0_n_n.rhsIdx (ix2 p q) ((contrEquiv1 dot_S1024x512_S1024x512_S1024x1024_1_1_0_0_n_n 512 rfl rfl).symm k) = ix2 q k :=
    funext fun z => Fin.ext (by
      match z with
      | ⟨0, _⟩ => exact tile_rhs0 _ _
      | ⟨1, _⟩ => exact (tile_rhs1 _ _).trans h)
  rw [el, er]

/-! ## The stored values -/

/-- The first kernel's first stored value at (p, k): the masked row `p` of `x` against row `k` of `w`. -/
theorem pay_projected (x mx : Vec Ideal S1024x512 .f32) (w : Vec Ideal S512x512 .f32) (p : Fin 1024) (k : Fin 512) :
    k0_pay1 x mx w (ix2 p k) = ∑ d : Fin 512, (x (ix2 p d) * mx (ix2 p d)) * w (ix2 k d) := by
  unfold k0_pay1
  exact matmul_rows _ _ p k

/-- The first kernel's second stored value: the masked `y`, entry by entry. -/
theorem pay_masked (y my : Vec Ideal S1024x512 .f32) (j : S1024x512.Idx) : k0_pay2 y my j = y j * my j := rfl

/-- The second kernel's stored value at (p, q): the logistic function of row `p` of the projected block against row
    `q` of the masked block. -/
theorem pay_tile (yd : Vec Ideal S1024x512 .bf16) (xt : Vec Ideal S1024x512 .f32) (p q : Fin 1024) :
    k1_pay1 yd xt (ix2 p q) = Ideal.logistic (∑ k : Fin 512, xt (ix2 p k) * yd (ix2 q k)) := by
  unfold k1_pay1
  show Ideal.logistic (matmul (F := Ideal) _ none _ _ _ (ix2 p q)) = _
  rw [matmul_tile]
  simp only [shapeCast_self]
  rfl

end Cert.KernelIdeal.Score

end
-- ==== Proof.Region0.lean ====
/-
  The first kernel, run over its eight blocks of 1024 rows, leaves in its two result arrays the projected masked `x`
  and the masked `y` of the arrays it finds at its five arguments.

  Point `t` reads rows 1024·t … 1024·t + 1023 of x, mask_x, y, mask_y and all of w, and writes the same rows of the two
  results; entry (p, k) of a written block reads row `p` of the blocks it was computed from, which is row 1024·t + p of
  the arrays. The eight blocks tile the 8192 rows.
-/
import proofs.«174755_j32392643347090_2_alg».proof.Proof.Gen.KernelIdeal.Frame
import proofs.«174755_j32392643347090_2_alg».proof.Proof.Dots
import proofs.«174755_j32392643347090_2_alg».proof.Proof.Spec
import Idealize.ShloMosaic.Lib.Pipeline.Value

set_option maxRecDepth 16384

noncomputable section

namespace Cert.KernelIdeal.Score

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl

/-- The block indices of the first kernel's windows at point `t`, decided over the eight points: the row windows are
    at block `t` of the row axis, the window of `w` stays at its one block. -/
theorem index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-! ## The blocks the body reads -/

/-- Row `p` of the block of `x` at point `t` is row 1024·t + p of the array. -/
theorem block_x (c : Dev nD) (t : Fin cfg0.N) (p : Fin 1024) (d : Fin 512) (n : Fin 8192) (hn : n.val = t.val * 1024 + p.val) :
    iblk0 V c 0 t (ix2 p d) = V c main_arg0 (ix2 n d) := by
  obtain ⟨e0, e1, e2, e3, e4, e5, e6, e7, e8, e9, -⟩ := index0 t
  unfold iblk0
  rw [View.read_apply]
  show V c main_arg0 _ = V c main_arg0 _
  refine congrArg _ (funext fun a => Fin.ext ?_)
  match a with
  | ⟨0, _⟩ => show win0_0.index t (0 : Fin 2) * 1024 + 1 * p.val = n.val; omega
  | ⟨1, _⟩ => show win0_0.index t (1 : Fin 2) * 512 + 1 * d.val = d.val; omega

/-- The same of the mask of `x`. -/
theorem block_mx (c : Dev nD) (t : Fin cfg0.N) (p : Fin 1024) (d : Fin 512) (n : Fin 8192) (hn : n.val = t.val * 1024 + p.val) :
    iblk0 V c 1 t (ix2 p d) = V c main_arg2 (ix2 n d) := by
  obtain ⟨e0, e1, e2, e3, e4, e5, e6, e7, e8, e9, -⟩ := index0 t
  unfold iblk0
  rw [View.read_apply]
  show V c main_arg2 _ = V c main_arg2 _
  refine congrArg _ (funext fun a => Fin.ext ?_)
  match a with
  | ⟨0, _⟩ => show win0_1.index t (0 : Fin 2) * 1024 + 1 * p.val = n.val; omega
  | ⟨1, _⟩ => show win0_1.index t (1 : Fin 2) * 512 + 1 * d.val = d.val; omega

/-- The same of `y`. -/
theorem block_y (c : Dev nD) (t : Fin cfg0.N) (p : Fin 1024) (d : Fin 512) (n : Fin 8192) (hn : n.val = t.val * 1024 + p.val) :
    iblk0 V c 2 t (ix2 p d) = V c main_arg1 (ix2 n d) := by
  obtain ⟨e0, e1, e2, e3, e4, e5, e6, e7, e8, e9, -⟩ := index0 t
  unfold iblk0
  rw [View.read_apply]
  show V c main_arg1 _ = V c main_arg1 _
  refine congrArg _ (funext fun a => Fin.ext ?_)
  match a with
  | ⟨0, _⟩ => show win0_2.index t (0 : Fin 2) * 1024 + 1 * p.val = n.val; omega
  | ⟨1, _⟩ => show win0_2.index t (1 : Fin 2) * 512 + 1 * d.val = d.val; omega

/-- The same of the mask of `y`. -/
theorem block_my (c : Dev nD) (t : Fin cfg0.N) (p : Fin 1024) (d : Fin 512) (n : Fin 8192) (hn : n.val = t.val * 1024 + p.val) :
    iblk0 V c 3 t (ix2 p d) = V c main_arg3 (ix2 n d) := by
  obtain ⟨e0, e1, e2, e3, e4, e5, e6, e7, e8, e9, -⟩ := index0 t
  unfold iblk0
  rw [View.read_apply]
  show V c main_arg3 _ = V c main_arg3 _
  refine congrArg _ (funext fun a => Fin.ext ?_)
  match a with
  | ⟨0, _⟩ => show win0_3.index t (0 : Fin 2) * 1024 + 1 * p.val = n.val; omega
  | ⟨1, _⟩ => show win0_3.index t (1 : Fin 2) * 512 + 1 * d.val = d.val; omega

/-- The one block of `w` is the array. -/
theorem block_w (c : Dev nD) (t : Fin cfg0.N) (p : Fin 512) (d : Fin 512) (n : Fin 512) (hn : n.val = p.val) :
    iblk0 V c 4 t (ix2 p d) = V c main_arg4 (ix2 n d) := by
  obtain ⟨e0, e1, e2, e3, e4, e5, e6, e7, e8, e9, -⟩ := index0 t
  unfold iblk0
  rw [View.read_apply]
  show V c main_arg4 _ = V c main_arg4 _
  refine congrArg _ (funext fun a => Fin.ext ?_)
  match a with
  | ⟨0, _⟩ => show win0_4.index t (0 : Fin 2) * 512 + 1 * p.val = n.val; omega
  | ⟨1, _⟩ => show win0_4.index t (1 : Fin 2) * 512 + 1 * d.val = d.val; omega

/-! ## What a point writes back -/

/-- Entry (p, k) of an output block at point `t` sits at row 1024·t + p of the output array. -/
theorem emb_projected (t : Fin cfg0.N) (p : Fin 1024) (k : Fin 512) (n : Fin 8192) (hn : n.val = t.val * 1024 + p.val) :
    ((cfg0.win 5).blk t).view.emb (ix2 p k) = (ix2 n k : S8192x512.Idx) := by
  obtain ⟨e0, e1, e2, e3, e4, e5, e6, e7, e8, e9, e10, e11, -⟩ := index0 t
  refine funext fun a => Fin.ext ?_
  match a with
  | ⟨0, _⟩ => show win0_5.index t (0 : Fin 2) * 1024 + 1 * p.val = n.val; omega
  | ⟨1, _⟩ => show win0_5.index t (1 : Fin 2) * 512 + 1 * k.val = k.val; omega

theorem emb_masked (t : Fin cfg0.N) (p : Fin 1024) (k : Fin 512) (n : Fin 8192) (hn : n.val = t.val * 1024 + p.val) :
    ((cfg0.win 6).blk t).view.emb (ix2 p k) = (ix2 n k : S8192x512.Idx) := by
  obtain ⟨e0, e1, e2, e3, e4, e5, e6, e7, e8, e9, e10, e11, e12, e13⟩ := index0 t
  refine funext fun a => Fin.ext ?_
  match a with
  | ⟨0, _⟩ => show win0_6.index t (0 : Fin 2) * 1024 + 1 * p.val = n.val; omega
  | ⟨1, _⟩ => show win0_6.index t (1 : Fin 2) * 512 + 1 * k.val = k.val; omega

/-- The row of the arrays that row `p` of the blocks at point `t` is. -/
def rowAt (t : Fin cfg0.N) (p : Fin 1024) : Fin 8192 :=
  ⟨t.val * 1024 + p.val, by have hN : cfg0.N = 8 := N_0; have := t.isLt; have := p.isLt; omega⟩

/-- Point `t` writes back block `t` of the projected masked `x` of the arrays the kernel finds. -/
theorem flushed_projected (c : Dev nD) (t : Fin cfg0.N) :
    (dat0 V c).flushed 5 t = ((cfg0.win 5).blk t).view.read (Elt Ideal)
      (Cert.Score.projected (V c main_arg0) (V c main_arg2) (V c main_arg4)) := by
  show (cfg0.win 5).cut (grid0.coords t) ((dat0 V c).after 5 t) = _
  rw [after0_5]
  unfold out0_5
  rw [View.canon_unit_zero zeros2]
  simp only [View.ld_unit_zero (S := S1024x512) zeros2, View.ld_unit_zero (S := S512x512) zeros2]
  refine funext fun (j : S1024x512.Idx) => ?_
  obtain ⟨p, k, rfl⟩ : ∃ (p : Fin 1024) (k : Fin 512), j = ix2 p k := ⟨j 0, j 1, eq_ix2 j⟩
  rw [View.read_apply, emb_projected t p k (rowAt t p) rfl]
  refine (pay_projected _ _ _ p k).trans ?_
  refine ((Cert.Score.projected_apply _ _ _ (rowAt t p) k).trans ?_).symm
  exact Finset.sum_congr rfl fun d _ => by
    rw [block_x V c t p d (rowAt t p) rfl, block_mx V c t p d (rowAt t p) rfl, block_w V c t k d k rfl]

/-- Point `t` writes back block `t` of the masked `y`. -/
theorem flushed_masked (c : Dev nD) (t : Fin cfg0.N) :
    (dat0 V c).flushed 6 t = ((cfg0.win 6).blk t).view.read (Elt Ideal)
      (Cert.Score.masked (V c main_arg1) (V c main_arg3)) := by
  show (cfg0.win 6).cut (grid0.coords t) ((dat0 V c).after 6 t) = _
  rw [after0_6]
  unfold out0_6
  rw [View.canon_unit_zero zeros2]
  simp only [View.ld_unit_zero (S := S1024x512) zeros2]
  refine funext fun (j : S1024x512.Idx) => ?_
  obtain ⟨p, k, rfl⟩ : ∃ (p : Fin 1024) (k : Fin 512), j = ix2 p k := ⟨j 0, j 1, eq_ix2 j⟩
  rw [View.read_apply, emb_masked t p k (rowAt t p) rfl]
  refine (pay_masked _ _ (ix2 p k)).trans ?_
  rw [block_y V c t p k (rowAt t p) rfl, block_my V c t p k (rowAt t p) rfl]
  rfl

/-! ## The blocks tile the rows -/

theorem mem_block5 (t : Fin cfg0.N) (i : S8192x512.Idx) :
    i ∈ ((cfg0.win 5).blk t).view.set ↔ ∀ a : Fin 2, win0_5.index t a * S1024x512.size a ≤ (i a).val
      ∧ (i a).val < win0_5.index t a * S1024x512.size a + S1024x512.size a := by
  show i ∈ ((View.whole main_v0_0).slice (win0_5.rect t)).set ↔ _
  rw [View.set_slice_whole, Rect.mem_set_unit]
  exact Iff.rfl

theorem mem_block6 (t : Fin cfg0.N) (i : S8192x512.Idx) :
    i ∈ ((cfg0.win 6).blk t).view.set ↔ ∀ a : Fin 2, win0_6.index t a * S1024x512.size a ≤ (i a).val
      ∧ (i a).val < win0_6.index t a * S1024x512.size a + S1024x512.size a := by
  show i ∈ ((View.whole main_v0_1).slice (win0_6.rect t)).set ↔ _
  rw [View.set_slice_whole, Rect.mem_set_unit]
  exact Iff.rfl

/-- The point whose blocks hold row `n`. -/
def pointOf (i : S8192x512.Idx) : Fin cfg0.N :=
  ⟨(i 0).val / 1024, by rw [show cfg0.N = 8 from N_0]; have h : (i 0).val < 8192 := (i 0).isLt; omega⟩

theorem cover5 (i : S8192x512.Idx) : ∃ t : Fin cfg0.N, (cfg0.win 5).flush t = true ∧ i ∈ ((cfg0.win 5).blk t).view.set := by
  refine ⟨pointOf i, flush0_5 _, ?_⟩
  obtain ⟨e0, e1, e2, e3, e4, e5, e6, e7, e8, e9, e10, e11, -⟩ := index0 (pointOf i)
  have hv : (pointOf i).val = (i 0).val / 1024 := rfl
  have h0 : (i 0).val < 8192 := (i 0).isLt
  have h1 : (i 1).val < 512 := (i 1).isLt
  rw [mem_block5]
  intro a
  match a with
  | ⟨0, _⟩ => show win0_5.index (pointOf i) (0 : Fin 2) * 1024 ≤ (i 0).val ∧ (i 0).val < win0_5.index (pointOf i) (0 : Fin 2) * 1024 + 1024; omega
  | ⟨1, _⟩ => show win0_5.index (pointOf i) (1 : Fin 2) * 512 ≤ (i 1).val ∧ (i 1).val < win0_5.index (pointOf i) (1 : Fin 2) * 512 + 512; omega

theorem cover6 (i : S8192x512.Idx) : ∃ t : Fin cfg0.N, (cfg0.win 6).flush t = true ∧ i ∈ ((cfg0.win 6).blk t).view.set := by
  refine ⟨pointOf i, flush0_6 _, ?_⟩
  obtain ⟨e0, e1, e2, e3, e4, e5, e6, e7, e8, e9, e10, e11, e12, e13⟩ := index0 (pointOf i)
  have hv : (pointOf i).val = (i 0).val / 1024 := rfl
  have h0 : (i 0).val < 8192 := (i 0).isLt
  have h1 : (i 1).val < 512 := (i 1).isLt
  rw [mem_block6]
  intro a
  match a with
  | ⟨0, _⟩ => show win0_6.index (pointOf i) (0 : Fin 2) * 1024 ≤ (i 0).val ∧ (i 0).val < win0_6.index (pointOf i) (0 : Fin 2) * 1024 + 1024; omega
  | ⟨1, _⟩ => show win0_6.index (pointOf i) (1 : Fin 2) * 512 ≤ (i 1).val ∧ (i 1).val < win0_6.index (pointOf i) (1 : Fin 2) * 512 + 512; omega

/-! ## The two result arrays after the first kernel -/

theorem final_projected (c : Dev nD) :
    (dat0 V c).arrAt 5 cfg0.N = Cert.Score.projected (V c main_arg0) (V c main_arg2) (V c main_arg4) :=
  (dat0 V c).arrAt_eq_of_cover 5 _ (fun t _ => flushed_projected V c t) cover5

theorem final_masked (c : Dev nD) :
    (dat0 V c).arrAt 6 cfg0.N = Cert.Score.masked (V c main_arg1) (V c main_arg3) :=
  (dat0 V c).arrAt_eq_of_cover 6 _ (fun t _ => flushed_masked V c t) cover6

end Cert.KernelIdeal.Score

end
-- ==== Proof.Region1.lean ====
/-
  The second kernel, run over its 8 × 8 tiles, leaves in its result array the logistic score of the two arrays it finds.

  Point (a, b) reads rows 1024·a … 1024·a + 1023 of the projected array and, out of the whole masked array held
  resident, rows 1024·b … 1024·b + 1023; it writes tile (a, b) of the result. Entry (p, q) of the tile reads row `p` of
  the first block and row `q` of the second, which are rows 1024·a + p and 1024·b + q of the arrays. The 64 tiles tile
  the 8192 × 8192 result.
-/
import proofs.«174755_j32392643347090_2_alg».proof.Proof.Gen.KernelIdeal.Frame
import proofs.«174755_j32392643347090_2_alg».proof.Proof.Dots
import proofs.«174755_j32392643347090_2_alg».proof.Proof.Spec
import Idealize.ShloMosaic.Lib.Pipeline.Value
import Idealize.ShloMosaic.Lib.Tactic

set_option maxRecDepth 16384

noncomputable section

namespace Cert.KernelIdeal.Tile

open Cert.KernelIdeal Cert.KernelIdeal.Gen Cert.KernelIdeal.Score Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl

/-- The block indices of the second kernel's windows, and the first row the body reads of the resident array, at
    point `t` = 8·a + b, decided over the 64 points. -/
theorem index1 : ∀ t : Fin cfg1.N,
    win1_0.index t (0 : Fin 2) = t.val / 8 ∧ win1_0.index t (1 : Fin 2) = 0
    ∧ win1_1.index t (0 : Fin 2) = 0 ∧ win1_1.index t (1 : Fin 2) = 0
    ∧ win1_2.index t (0 : Fin 2) = t.val / 8 ∧ win1_2.index t (1 : Fin 2) = t.val % 8
    ∧ k1_off1 (grid1.coords t) (0 : Fin 2) = (t.val % 8) * 1024 ∧ k1_off1 (grid1.coords t) (1 : Fin 2) = 0 :=
  (by decide +kernel : ∀ t : Fin grid1.N, _)

/-- What the body leaves in the output's staging buffer: its one covering store's value, of the block of the first
    operand and the rows of the resident operand it loads. -/
theorem tile_value (c : Dev nD) (i : grid1.Coords) (a2 : Memref sig .tc .vmem S1024x512 .f32) (h2 : a2.IsWhole)
    (a3 : Memref sig .tc .vmem S8192x512 .bf16) (h3 : a3.IsWhole) (a4 : Memref sig .tc .vmem S1024x1024 .f32) (h4 : a4.IsWhole)
    (x0 : Vec Ideal S1024x512 .f32) (x1 : Vec Ideal S8192x512 .bf16) :
    out1_A_2 c i a2 h2 a3 h3 a4 h4 x0 x1
      = k1_pay1 (View.ld x1 (Rect.unit (s := S8192x512) (k1_off1 i) S1024x512.size (k1_off1_inb i))) x0 := by
  unfold out1_A_2
  rw [View.read_writes_eq_canon _ _ _ (cover1_A_2 c i a2 h2 a3 h3 a4 h4 x0 x1)]
  unfold kernelRun1_A
  dsimp only
  rw [View.canon_unit_zero zeros2]
  simp only [View.readAt_eq_ld, h2.read_unread, h3.read_unread, View.ld_unit_zero (S := S1024x512) zeros2]

/-! ## The blocks the body reads -/

/-- Row `p` of the block of the projected array at point `t` is row 1024·(t / 8) + p of the array. -/
theorem block_xt (c : Dev nD) (t : Fin cfg1.N) (p : Fin 1024) (k : Fin 512) (n : Fin 8192) (hn : n.val = t.val / 8 * 1024 + p.val) :
    iblk1 V c 0 t (ix2 p k) = V c main_v0_0 (ix2 n k) := by
  obtain ⟨e0, e1, -⟩ := index1 t
  unfold iblk1
  rw [View.read_apply]
  show V c main_v0_0 _ = V c main_v0_0 _
  refine congrArg _ (funext fun a => Fin.ext ?_)
  match a with
  | ⟨0, _⟩ => show win1_0.index t (0 : Fin 2) * 1024 + 1 * p.val = n.val; omega
  | ⟨1, _⟩ => show win1_0.index t (1 : Fin 2) * 512 + 1 * k.val = k.val; omega

/-- The one block of the masked array is the array. -/
theorem block_yd (c : Dev nD) (t : Fin cfg1.N) (r : Fin 8192) (k : Fin 512) :
    iblk1 V c 1 t (ix2 r k) = V c main_v0_1 (ix2 r k) := by
  obtain ⟨e0, e1, e2, e3, -⟩ := index1 t
  unfold iblk1
  rw [View.read_apply]
  show V c main_v0_1 _ = V c main_v0_1 _
  refine congrArg _ (funext fun a => Fin.ext ?_)
  match a with
  | ⟨0, _⟩ => show win1_1.index t (0 : Fin 2) * 8192 + 1 * r.val = r.val; omega
  | ⟨1, _⟩ => show win1_1.index t (1 : Fin 2) * 512 + 1 * k.val = k.val; omega

/-- Row `q` of the rows the body loads of the resident array is the array's row (first loaded row) + q. -/
theorem loaded_rows (i : grid1.Coords) (x1 : Vec Ideal S8192x512 .bf16) (q : Fin 1024) (k : Fin 512) (r : Fin 8192)
    (h0 : r.val = k1_off1 i (0 : Fin 2) + q.val) (h1 : k1_off1 i (1 : Fin 2) = 0) :
    View.ld x1 (Rect.unit (s := S8192x512) (k1_off1 i) S1024x512.size (k1_off1_inb i)) (ix2 q k) = x1 (ix2 r k) := by
  show x1 _ = x1 _
  refine congrArg _ (funext fun a => Fin.ext ?_)
  match a with
  | ⟨0, _⟩ => show k1_off1 i (0 : Fin 2) + 1 * q.val = r.val; omega
  | ⟨1, _⟩ => show k1_off1 i (1 : Fin 2) + 1 * k.val = k.val; omega

/-! ## What a point writes back -/

/-- The rows of the two arrays that entry (p, q) of the tile at point `t` reads. -/
def rowA (t : Fin cfg1.N) (p : Fin 1024) : Fin 8192 :=
  ⟨t.val / 8 * 1024 + p.val, by have hN : cfg1.N = 64 := N_1; have := t.isLt; have := p.isLt; omega⟩
def rowB (t : Fin cfg1.N) (q : Fin 1024) : Fin 8192 :=
  ⟨t.val % 8 * 1024 + q.val, by have := q.isLt; omega⟩

/-- Entry (p, q) of the tile at point `t` sits at (rowA t p, rowB t q) of the result. -/
theorem emb_tile (t : Fin cfg1.N) (p q : Fin 1024) :
    ((cfg1.win 2).blk t).view.emb (ix2 p q) = (ix2 (rowA t p) (rowB t q) : S8192x8192.Idx) := by
  obtain ⟨e0, e1, e2, e3, e4, e5, -⟩ := index1 t
  refine funext fun a => Fin.ext ?_
  match a with
  | ⟨0, _⟩ => show win1_2.index t (0 : Fin 2) * 1024 + 1 * p.val = t.val / 8 * 1024 + p.val; omega
  | ⟨1, _⟩ => show win1_2.index t (1 : Fin 2) * 1024 + 1 * q.val = t.val % 8 * 1024 + q.val; omega

/-- Point `t` writes back tile `t` of the score of the two arrays the kernel finds. -/
theorem flushed_tile (c : Dev nD) (t : Fin cfg1.N) :
    (dat1 V c).flushed 2 t = ((cfg1.win 2).blk t).view.read (Elt Ideal)
      (Cert.Score.score (V c main_v0_0) (V c main_v0_1)) := by
  show (cfg1.win 2).cut (grid1.coords t) ((dat1 V c).after 2 t) = _
  rw [after1_2]
  unfold outsAt1
  rw [tile_value]
  obtain ⟨e0, e1, e2, e3, e4, e5, e6, e7⟩ := index1 t
  refine funext fun (j : S1024x1024.Idx) => ?_
  obtain ⟨p, q, rfl⟩ : ∃ (p q : Fin 1024), j = ix2 p q := ⟨j 0, j 1, eq_ix2 j⟩
  rw [View.read_apply, emb_tile t p q]
  refine (pay_tile _ _ p q).trans ?_
  refine ((Cert.Score.score_apply _ _ (rowA t p) (rowB t q)).trans ?_).symm
  refine congrArg Ideal.logistic (Finset.sum_congr rfl fun k _ => ?_)
  rw [block_xt V c t p k (rowA t p) rfl,
    loaded_rows (grid1.coords t) (iblk1 V c 1 t) q k (rowB t q) (by show t.val % 8 * 1024 + q.val = _; omega) e7,
    block_yd V c t (rowB t q) k]

/-! ## The tiles tile the result -/

theorem mem_tile (t : Fin cfg1.N) (i : S8192x8192.Idx) :
    i ∈ ((cfg1.win 2).blk t).view.set ↔ ∀ a : Fin 2, win1_2.index t a * S1024x1024.size a ≤ (i a).val
      ∧ (i a).val < win1_2.index t a * S1024x1024.size a + S1024x1024.size a := by
  show i ∈ ((View.whole main_v1).slice (win1_2.rect t)).set ↔ _
  rw [View.set_slice_whole, Rect.mem_set_unit]
  exact Iff.rfl

/-- The point whose tile holds entry `i`. -/
def pointOf (i : S8192x8192.Idx) : Fin cfg1.N :=
  ⟨(i 0).val / 1024 * 8 + (i 1).val / 1024, by
    rw [show cfg1.N = 64 from N_1]; have h0 : (i 0).val < 8192 := (i 0).isLt; have h1 : (i 1).val < 8192 := (i 1).isLt; omega⟩

theorem cover_tiles (i : S8192x8192.Idx) :
    ∃ t : Fin cfg1.N, (cfg1.win 2).flush t = true ∧ i ∈ ((cfg1.win 2).blk t).view.set := by
  refine ⟨pointOf i, flush1_2 _, ?_⟩
  obtain ⟨e0, e1, e2, e3, e4, e5, -⟩ := index1 (pointOf i)
  have hv : (pointOf i).val = (i 0).val / 1024 * 8 + (i 1).val / 1024 := rfl
  have h0 : (i 0).val < 8192 := (i 0).isLt
  have h1 : (i 1).val < 8192 := (i 1).isLt
  rw [mem_tile]
  intro a
  match a with
  | ⟨0, _⟩ => show win1_2.index (pointOf i) (0 : Fin 2) * 1024 ≤ (i 0).val ∧ (i 0).val < win1_2.index (pointOf i) (0 : Fin 2) * 1024 + 1024; omega
  | ⟨1, _⟩ => show win1_2.index (pointOf i) (1 : Fin 2) * 1024 ≤ (i 1).val ∧ (i 1).val < win1_2.index (pointOf i) (1 : Fin 2) * 1024 + 1024; omega

/-! ## The result array after the second kernel -/

theorem final_score (c : Dev nD) :
    (dat1 V c).arrAt 2 cfg1.N = Cert.Score.score (V c main_v0_0) (V c main_v0_1) :=
  (dat1 V c).arrAt_eq_of_cover 2 _ (fun t _ => flushed_tile V c t) cover_tiles

end Cert.KernelIdeal.Tile

end
-- ==== Proof.Run.lean ====
/-
  The whole program's run with its result named.

  The program is the two kernels one after the other. Every weakly fair execution terminates without a fault; the
  result array then holds what the second kernel's write-backs leave of the arrays the first kernel's write-backs left
  of the arguments, and the arguments are unchanged. By the two kernels' values this is the logistic score of the
  projected masked `x` against the masked `y`.
-/
import proofs.«174755_j32392643347090_2_alg».proof.Proof.Gen.KernelIdeal.Frame
import proofs.«174755_j32392643347090_2_alg».proof.Proof.Region0
import proofs.«174755_j32392643347090_2_alg».proof.Proof.Region1

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section AnyValues

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at what the last
    kernel's write-backs leave and the argument arrays as launched. -/
theorem run_named : θ_run defs (onTc (τ := τ) (main (F := F))) ⟨m, fun _ => 0, ρ⟩ (fun r => ∀ c : Dev nD,
      r.2.mem ((c.tc : Thread nD τ).loc main_v1) = W2 m ρ c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨h c _ (mem_uc main_v1 (by decide)),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c),
       (h c _ (mem_uc main_arg4 (by decide))).trans (W2_main_arg4 m ρ c)⟩)

end AnyValues

section Exact

variable (m : (ℓ : Loc nD τ sig) → Buf (Elt Ideal) ℓ) (ρ : Dev nD → PrngReg)

/-- What the last kernel's write-backs leave is the result function of the five arguments (x, mask of x, y, mask of
    y, w): the second kernel's array of the first kernel's two arrays of the launch contents. -/
theorem named_eq (c : Dev nD) : W2 m ρ c (Proc.devRef .tc main_v1)
    = Cert.Score.result (m ((c.tc : Thread nD τ).loc main_arg0)) (m ((c.tc : Thread nD τ).loc main_arg2))
        (m ((c.tc : Thread nD τ).loc main_arg1)) (m ((c.tc : Thread nD τ).loc main_arg3)) (m ((c.tc : Thread nD τ).loc main_arg4)) := by
  refine (W2_arr m ρ c 2).trans ?_
  refine (Tile.final_score (V1 m ρ) c).trans ?_
  have e5 : V1 m ρ c main_v0_0 = Cert.Score.projected (V0 m ρ c main_arg0) (V0 m ρ c main_arg2) (V0 m ρ c main_arg4) :=
    (W1_arr m ρ c 5).trans (Score.final_projected (V0 m ρ) c)
  have e6 : V1 m ρ c main_v0_1 = Cert.Score.masked (V0 m ρ c main_arg1) (V0 m ρ c main_arg3) :=
    (W1_arr m ρ c 6).trans (Score.final_masked (V0 m ρ) c)
  rw [e5, e6]
  rfl

/-- The run, read: the result array at the result function of the arguments, the arguments unchanged. -/
theorem run : θ_run defs (onTc (τ := τ) (main (F := Ideal))) ⟨m, fun _ => 0, ρ⟩ (fun r => ∀ c : Dev nD,
      r.2.mem ((c.tc : Thread nD τ).loc main_v1)
        = Cert.Score.result (m ((c.tc : Thread nD τ).loc main_arg0)) (m ((c.tc : Thread nD τ).loc main_arg2))
            (m ((c.tc : Thread nD τ).loc main_arg1)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (named_eq m ρ c), (h c).2⟩) (run_named m ρ)

end Exact

end Cert.KernelIdeal.Whole

end
-- ==== Proof.lean ====
/-
  A bilinear discriminator:  sigmoid ((x ∘ mask_x) · wᵀ · (y ∘ mask_y)ᵀ)  over x, y, mask_x, mask_y : 8192×512 and
  w : 512×512, computed by two kernels against the plain formula.

  Over the extended reals both programs compute, at (n, r),
      logistic (∑ k < 512, (∑ d < 512, (x (n, d) · mask_x (n, d)) · w (k, d)) · (y (r, k) · mask_y (r, k))),
  with the same grouping of both sums, so no law beyond the definitions joins them and the finiteness of the inputs
  is not used:
  * the first kernel writes, block of 1024 rows by block, the inner sums (row n of the block's operands is row n of
    the arrays) and the masked y; the second writes, tile by tile over 8 × 8 tiles, the logistic function of the outer
    sum (entry (p, q) of tile (a, b) reads row 1024·a + p of the first array and row 1024·b + q of the second);
    a change of float format is the identity on exact values, and a matrix product into a zero accumulator is the sum;
  * the reference's  1 / (1 + e^(−t))  is the logistic function by definition.
  The three frames are the programs' runs with the results dropped; the kernel's idealization rewrote nothing.
-/
import proofs.«174755_j32392643347090_2_alg».proof.Defs
import proofs.«174755_j32392643347090_2_alg».proof.Proof.Gen.Kernel
import proofs.«174755_j32392643347090_2_alg».proof.Proof.Gen.Kernel.Skeleton
import proofs.«174755_j32392643347090_2_alg».proof.Proof.Gen.Kernel.Launch
import proofs.«174755_j32392643347090_2_alg».proof.Proof.Gen.Kernel.Points
import proofs.«174755_j32392643347090_2_alg».proof.Proof.Gen.Kernel.Frame
import proofs.«174755_j32392643347090_2_alg».proof.Proof.Gen.KernelIdeal
import proofs.«174755_j32392643347090_2_alg».proof.Proof.Gen.KernelIdeal.Skeleton
import proofs.«174755_j32392643347090_2_alg».proof.Proof.Gen.KernelIdeal.Launch
import proofs.«174755_j32392643347090_2_alg».proof.Proof.Gen.KernelIdeal.Points
import proofs.«174755_j32392643347090_2_alg».proof.Proof.Gen.KernelIdeal.Frame
import proofs.«174755_j32392643347090_2_alg».proof.Proof.Gen.ReferenceIdeal
import proofs.«174755_j32392643347090_2_alg».proof.Proof.Gen.Pre_finite_inputs
import proofs.«174755_j32392643347090_2_alg».proof.Proof.Gen.ReferenceIdeal.Run
import proofs.«174755_j32392643347090_2_alg».proof.Proof.Gen.ReferenceIdeal.Read
import proofs.«174755_j32392643347090_2_alg».proof.Proof.RefValue
import proofs.«174755_j32392643347090_2_alg».proof.Proof.Run
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ
theorem frame_ideal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

/-- Both programs end with the result function of arguments that agree: the kernel's run read through its two
    kernels, the reference's through its operations. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.stage_eq, (hagree c).1, (hagree c).2.1,
    (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
